-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32 : Shape := ⟨2, ![1024, 32]⟩
abbrev S4096x32 : Shape := ⟨2, ![4096, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S1024x32 .f32) (main_arg1 : FVec F S4096x32 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  main_v8
-- ==== Kernel.lean ====
abbrev S1024x32 : Shape := ⟨2, ![1024, 32]⟩
abbrev S4096x32 : Shape := ⟨2, ![4096, 32]⟩
abbrev S32x4096 : Shape := ⟨2, ![32, 4096]⟩
abbrev S1024 : Shape := ⟨1, ![1024]⟩
abbrev S256x32 : Shape := ⟨2, ![256, 32]⟩
abbrev S256 : Shape := ⟨1, ![256]⟩
abbrev S256x4096 : Shape := ⟨2, ![256, 4096]⟩
abbrev S256x1 : Shape := ⟨2, ![256, 1]⟩
abbrev S1x4096 : Shape := ⟨2, ![1, 4096]⟩

abbrev nBuf : Space → Nat
  | .hbm => 4
  | .vmem => 6
  | .smem => 0
  | _ => 0

abbrev bufTy : (tb : Table) → Fin (tcTables nBuf tb) → BufTy
  | .hbm, ⟨0, _⟩ => ⟨S1024x32, .f32⟩
  | .hbm, ⟨1, _⟩ => ⟨S4096x32, .f32⟩
  | .hbm, ⟨2, _⟩ => ⟨S32x4096, .f32⟩
  | .hbm, ⟨3, _⟩ => ⟨S1024, .f32⟩
  | .local _ .vmem, ⟨0, _⟩ => ⟨S256x32, .f32⟩
  | .local _ .vmem, ⟨1, _⟩ => ⟨S256x32, .f32⟩
  | .local _ .vmem, ⟨2, _⟩ => ⟨S32x4096, .f32⟩
  | .local _ .vmem, ⟨3, _⟩ => ⟨S256, .f32⟩
  | .local _ .vmem, ⟨4, _⟩ => ⟨S256, .f32⟩
  | .local _ .vmem, ⟨5, _⟩ => ⟨S256x4096, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4096x32_S32x4096_1_0 : S4096x32.Transposes [1, 0] S32x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x32_S256x1_0_0 : ∀ a, (![0, 0] : Fin 2 → Nat) a + S256x1.size a ≤ S256x32.size a
  h_S256x1 : 0 < S256x1.numel
  inb_S32x4096_S1x4096_0_0 : ∀ a, (![0, 0] : Fin 2 → Nat) a + S1x4096.size a ≤ S32x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  inb_S256x32_S256x1_0_1 : ∀ a, (![0, 1] : Fin 2 → Nat) a + S256x1.size a ≤ S256x32.size a
  inb_S32x4096_S1x4096_1_0 : ∀ a, (![1, 0] : Fin 2 → Nat) a + S1x4096.size a ≤ S32x4096.size a
  inb_S256x32_S256x1_0_2 : ∀ a, (![0, 2] : Fin 2 → Nat) a + S256x1.size a ≤ S256x32.size a
  inb_S32x4096_S1x4096_2_0 : ∀ a, (![2, 0] : Fin 2 → Nat) a + S1x4096.size a ≤ S32x4096.size a
  inb_S256x32_S256x1_0_3 : ∀ a, (![0, 3] : Fin 2 → Nat) a + S256x1.size a ≤ S256x32.size a
  inb_S32x4096_S1x4096_3_0 : ∀ a, (![3, 0] : Fin 2 → Nat) a + S1x4096.size a ≤ S32x4096.size a
  inb_S256x32_S256x1_0_4 : ∀ a, (![0, 4] : Fin 2 → Nat) a + S256x1.size a ≤ S256x32.size a
  inb_S32x4096_S1x4096_4_0 : ∀ a, (![4, 0] : Fin 2 → Nat) a + S1x4096.size a ≤ S32x4096.size a
  inb_S256x32_S256x1_0_5 : ∀ a, (![0, 5] : Fin 2 → Nat) a + S256x1.size a ≤ S256x32.size a
  inb_S32x4096_S1x4096_5_0 : ∀ a, (![5, 0] : Fin 2 → Nat) a + S1x4096.size a ≤ S32x4096.size a
  inb_S256x32_S256x1_0_6 : ∀ a, (![0, 6] : Fin 2 → Nat) a + S256x1.size a ≤ S256x32.size a
  inb_S32x4096_S1x4096_6_0 : ∀ a, (![6, 0] : Fin 2 → Nat) a + S1x4096.size a ≤ S32x4096.size a
  inb_S256x32_S256x1_0_7 : ∀ a, (![0, 7] : Fin 2 → Nat) a + S256x1.size a ≤ S256x32.size a
  inb_S32x4096_S1x4096_7_0 : ∀ a, (![7, 0] : Fin 2 → Nat) a + S1x4096.size a ≤ S32x4096.size a
  inb_S256x32_S256x1_0_8 : ∀ a, (![0, 8] : Fin 2 → Nat) a + S256x1.size a ≤ S256x32.size a
  inb_S32x4096_S1x4096_8_0 : ∀ a, (![8, 0] : Fin 2 → Nat) a + S1x4096.size a ≤ S32x4096.size a
  inb_S256x32_S256x1_0_9 : ∀ a, (![0, 9] : Fin 2 → Nat) a + S256x1.size a ≤ S256x32.size a
  inb_S32x4096_S1x4096_9_0 : ∀ a, (![9, 0] : Fin 2 → Nat) a + S1x4096.size a ≤ S32x4096.size a
  inb_S256x32_S256x1_0_10 : ∀ a, (![0, 10] : Fin 2 → Nat) a + S256x1.size a ≤ S256x32.size a
  inb_S32x4096_S1x4096_10_0 : ∀ a, (![10, 0] : Fin 2 → Nat) a + S1x4096.size a ≤ S32x4096.size a
  inb_S256x32_S256x1_0_11 : ∀ a, (![0, 11] : Fin 2 → Nat) a + S256x1.size a ≤ S256x32.size a
  inb_S32x4096_S1x4096_11_0 : ∀ a, (![11, 0] : Fin 2 → Nat) a + S1x4096.size a ≤ S32x4096.size a
  inb_S256x32_S256x1_0_12 : ∀ a, (![0, 12] : Fin 2 → Nat) a + S256x1.size a ≤ S256x32.size a
  inb_S32x4096_S1x4096_12_0 : ∀ a, (![12, 0] : Fin 2 → Nat) a + S1x4096.size a ≤ S32x4096.size a
  inb_S256x32_S256x1_0_13 : ∀ a, (![0, 13] : Fin 2 → Nat) a + S256x1.size a ≤ S256x32.size a
  inb_S32x4096_S1x4096_13_0 : ∀ a, (![13, 0] : Fin 2 → Nat) a + S1x4096.size a ≤ S32x4096.size a
  inb_S256x32_S256x1_0_14 : ∀ a, (![0, 14] : Fin 2 → Nat) a + S256x1.size a ≤ S256x32.size a
  inb_S32x4096_S1x4096_14_0 : ∀ a, (![14, 0] : Fin 2 → Nat) a + S1x4096.size a ≤ S32x4096.size a
  inb_S256x32_S256x1_0_15 : ∀ a, (![0, 15] : Fin 2 → Nat) a + S256x1.size a ≤ S256x32.size a
  inb_S32x4096_S1x4096_15_0 : ∀ a, (![15, 0] : Fin 2 → Nat) a + S1x4096.size a ≤ S32x4096.size a
  inb_S256x32_S256x1_0_16 : ∀ a, (![0, 16] : Fin 2 → Nat) a + S256x1.size a ≤ S256x32.size a
  inb_S32x4096_S1x4096_16_0 : ∀ a, (![16, 0] : Fin 2 → Nat) a + S1x4096.size a ≤ S32x4096.size a
  inb_S256x32_S256x1_0_17 : ∀ a, (![0, 17] : Fin 2 → Nat) a + S256x1.size a ≤ S256x32.size a
  inb_S32x4096_S1x4096_17_0 : ∀ a, (![17, 0] : Fin 2 → Nat) a + S1x4096.size a ≤ S32x4096.size a
  inb_S256x32_S256x1_0_18 : ∀ a, (![0, 18] : Fin 2 → Nat) a + S256x1.size a ≤ S256x32.size a
  inb_S32x4096_S1x4096_18_0 : ∀ a, (![18, 0] : Fin 2 → Nat) a + S1x4096.size a ≤ S32x4096.size a
  inb_S256x32_S256x1_0_19 : ∀ a, (![0, 19] : Fin 2 → Nat) a + S256x1.size a ≤ S256x32.size a
  inb_S32x4096_S1x4096_19_0 : ∀ a, (![19, 0] : Fin 2 → Nat) a + S1x4096.size a ≤ S32x4096.size a
  inb_S256x32_S256x1_0_20 : ∀ a, (![0, 20] : Fin 2 → Nat) a + S256x1.size a ≤ S256x32.size a
  inb_S32x4096_S1x4096_20_0 : ∀ a, (![20, 0] : Fin 2 → Nat) a + S1x4096.size a ≤ S32x4096.size a
  inb_S256x32_S256x1_0_21 : ∀ a, (![0, 21] : Fin 2 → Nat) a + S256x1.size a ≤ S256x32.size a
  inb_S32x4096_S1x4096_21_0 : ∀ a, (![21, 0] : Fin 2 → Nat) a + S1x4096.size a ≤ S32x4096.size a
  inb_S256x32_S256x1_0_22 : ∀ a, (![0, 22] : Fin 2 → Nat) a + S256x1.size a ≤ S256x32.size a
  inb_S32x4096_S1x4096_22_0 : ∀ a, (![22, 0] : Fin 2 → Nat) a + S1x4096.size a ≤ S32x4096.size a
  inb_S256x32_S256x1_0_23 : ∀ a, (![0, 23] : Fin 2 → Nat) a + S256x1.size a ≤ S256x32.size a
  inb_S32x4096_S1x4096_23_0 : ∀ a, (![23, 0] : Fin 2 → Nat) a + S1x4096.size a ≤ S32x4096.size a
  inb_S256x32_S256x1_0_24 : ∀ a, (![0, 24] : Fin 2 → Nat) a + S256x1.size a ≤ S256x32.size a
  inb_S32x4096_S1x4096_24_0 : ∀ a, (![24, 0] : Fin 2 → Nat) a + S1x4096.size a ≤ S32x4096.size a
  inb_S256x32_S256x1_0_25 : ∀ a, (![0, 25] : Fin 2 → Nat) a + S256x1.size a ≤ S256x32.size a
  inb_S32x4096_S1x4096_25_0 : ∀ a, (![25, 0] : Fin 2 → Nat) a + S1x4096.size a ≤ S32x4096.size a
  inb_S256x32_S256x1_0_26 : ∀ a, (![0, 26] : Fin 2 → Nat) a + S256x1.size a ≤ S256x32.size a
  inb_S32x4096_S1x4096_26_0 : ∀ a, (![26, 0] : Fin 2 → Nat) a + S1x4096.size a ≤ S32x4096.size a
  inb_S256x32_S256x1_0_27 : ∀ a, (![0, 27] : Fin 2 → Nat) a + S256x1.size a ≤ S256x32.size a
  inb_S32x4096_S1x4096_27_0 : ∀ a, (![27, 0] : Fin 2 → Nat) a + S1x4096.size a ≤ S32x4096.size a
  inb_S256x32_S256x1_0_28 : ∀ a, (![0, 28] : Fin 2 → Nat) a + S256x1.size a ≤ S256x32.size a
  inb_S32x4096_S1x4096_28_0 : ∀ a, (![28, 0] : Fin 2 → Nat) a + S1x4096.size a ≤ S32x4096.size a
  inb_S256x32_S256x1_0_29 : ∀ a, (![0, 29] : Fin 2 → Nat) a + S256x1.size a ≤ S256x32.size a
  inb_S32x4096_S1x4096_29_0 : ∀ a, (![29, 0] : Fin 2 → Nat) a + S1x4096.size a ≤ S32x4096.size a
  inb_S256x32_S256x1_0_30 : ∀ a, (![0, 30] : Fin 2 → Nat) a + S256x1.size a ≤ S256x32.size a
  inb_S32x4096_S1x4096_30_0 : ∀ a, (![30, 0] : Fin 2 → Nat) a + S1x4096.size a ≤ S32x4096.size a
  inb_S256x32_S256x1_0_31 : ∀ a, (![0, 31] : Fin 2 → Nat) a + S256x1.size a ≤ S256x32.size a
  inb_S32x4096_S1x4096_31_0 : ∀ a, (![31, 0] : Fin 2 → Nat) a + S1x4096.size a ≤ S32x4096.size a
  natLt_1_32 : 1 < 32
  reduces_S256x4096_S256 : S256x4096.Reduces [1] S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S1024x32.size a
  hwx0_0 : ∀ i : grid0.Coords, EltTy.bits .f32 = 32 ∨ (Rect.block (s := S1024x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .f32 = 32 ∨ (Rect.block (s := S32x4096) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S1024.size a
  hwx0_2 : ∀ i : grid0.Coords, EltTy.bits .f32 = 32 ∨ (Rect.block (s := S1024) S256.size (cc0_transform_2 i) (hinb0_2 i)).WholeWords (EltTy.packing .f32)

variable [Facts₀]

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x32 : Shape := ⟨2, ![1024, 32]⟩
abbrev S4096x32 : Shape := ⟨2, ![4096, 32]⟩
abbrev S1024x1x32 : Shape := ⟨3, ![1024, 1, 32]⟩
abbrev S1x4096x32 : Shape := ⟨3, ![1, 4096, 32]⟩
abbrev S1024x4096x32 : Shape := ⟨3, ![1024, 4096, 32]⟩
abbrev S_ : Shape := ⟨0, ![]⟩
abbrev S1024x4096 : Shape := ⟨2, ![1024, 4096]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S4096x32, .f32⟩
  | .hbm, ⟨2, _⟩ => ⟨S1024x1x32, .f32⟩
  | .hbm, ⟨3, _⟩ => ⟨S1x4096x32, .f32⟩
  | .hbm, ⟨4, _⟩ => ⟨S1024x4096x32, .f32⟩
  | .hbm, ⟨5, _⟩ => ⟨S1024x4096x32, .f32⟩
  | .hbm, ⟨6, _⟩ => ⟨S1024x4096x32, .f32⟩
  | .hbm, ⟨7, _⟩ => ⟨S1024x4096x32, .f32⟩
  | .hbm, ⟨8, _⟩ => ⟨S_, .f32⟩
  | .hbm, ⟨9, _⟩ => ⟨S1024x4096x32, .f32⟩
  | .hbm, ⟨10, _⟩ => ⟨S1024x4096x32, .f32⟩
  | .hbm, ⟨11, _⟩ => ⟨S_, .f32⟩
  | .hbm, ⟨12, _⟩ => ⟨S1024x4096x32, .f32⟩
  | .hbm, ⟨13, _⟩ => ⟨S1024x4096x32, .i1⟩
  | .hbm, ⟨14, _⟩ => ⟨S_, .i1⟩
  | .hbm, ⟨15, _⟩ => ⟨S1024x4096, .i1⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S1024x32_S1024x1x32_0_2 : S1024x32.BroadcastsInDim S1024x1x32 (![0, 2] : Fin 2 → Fin S1024x1x32.rank)
  bcast_S4096x32_S1x4096x32_1_2 : S4096x32.BroadcastsInDim S1x4096x32 (![1, 2] : Fin 2 → Fin S1x4096x32.rank)
  bcast_S1024x1x32_S1024x4096x32_0_1_2 : S1024x1x32.BroadcastsInDim S1024x4096x32 (![0, 1, 2] : Fin 3 → Fin S1024x4096x32.rank)
  bcast_S1x4096x32_S1024x4096x32_0_1_2 : S1x4096x32.BroadcastsInDim S1024x4096x32 (![0, 1, 2] : Fin 3 → Fin S1024x4096x32.rank)
  bcast_S_S1024x4096x32 : S_.BroadcastsInDim S1024x4096x32 (![] : Fin 0 → Fin S1024x4096x32.rank)
  reducesTo_S1024x4096x32_S1024x4096_d2 : S1024x4096x32.ReducesTo [2] S1024x4096
  h_S_ : 0 < S_.numel
  bcast_S_S1024x4096 : S_.BroadcastsInDim S1024x4096 (![] : Fin 0 → Fin S1024x4096.rank)
  reducesTo_S1024x4096_S1024_d1 : S1024x4096.ReducesTo [1] S1024
  bcast_S_S1024 : S_.BroadcastsInDim S1024 (![] : Fin 0 → Fin S1024.rank)

variable [Facts₀]

class Facts : Prop extends Facts₀ where

variable [Facts]
-- ==== Proof.KernelBody.lean ====
/-
  What the kernel's body leaves in its output block, as ONE term of the two input blocks, at any float instance.

  The body zeroes a [256, 4096] scratch, then 32 times replaces it by the elementwise maximum of itself and
  |column k of the test block, broadcast along the lanes, minus row k of the transposed training block, broadcast
  along the rows|, reading the scratch back after every store; at the end it compares the scratch with 1/4, counts
  the hits along each row and scales the count.  Every load of the scratch reads what the store just before it
  wrote, so the 33 stores collapse to a chain of 32 steps from the zero block.
-/
import proofs.«159634_j82463372083230_2_alg».proof.Proof.Gen.KernelIdeal.Value
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Facts₀ Cert.KernelIdeal.Facts
open Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- Column k of the test block, as the body loads it: a [256, 1] vector. -/
def col (x0 : Vec F S256x32 .f32) (k : ℕ) (hk : k < 32) : Vec F S256x1 .f32 :=
  View.ld x0 (Rect.unit (s := S256x32) ![0, k] S256x1.size
    (Rect.inb₂ (by show 0 + 256 ≤ 256; omega) (by show k + 1 ≤ 32; omega)))

/-- Row k of the transposed training block, as the body loads it: a [1, 4096] vector. -/
def row (x1 : Vec F S32x4096 .f32) (k : ℕ) (hk : k < 32) : Vec F S1x4096 .f32 :=
  View.ld x1 (Rect.unit (s := S32x4096) ![k, 0] S1x4096.size
    (Rect.inb₂ (by show k + 1 ≤ 32; omega) (by show 0 + 4096 ≤ 4096; omega)))

/-- One step: the running maximum against |a broadcast along the lanes - b broadcast along the rows|. -/
def step (a : Vec F S256x1 .f32) (b : Vec F S1x4096 .f32) (acc : Vec F S256x4096 .f32) : FVec F S256x4096 .f32 :=
  maximumf acc (absf (subf (broadcastTo S256x4096 a Facts₀.broadcasts_S256x1_S256x4096)
    (broadcastTo S256x4096 b Facts₀.broadcasts_S1x4096_S256x4096)))

/-- The zero block the scratch starts from. -/
def zeroBlock : FVec F S256x4096 .f32 := broadcast S256x4096 (Scalar.ofBits .f32 0x00000000#32)

/-- The scratch after n steps. -/
def chain (x0 : Vec F S256x32 .f32) (x1 : Vec F S32x4096 .f32) : (n : ℕ) → n ≤ 32 → FVec F S256x4096 .f32
  | 0, _ => zeroBlock
  | n + 1, h => step (col x0 n (by omega)) (row x1 n (by omega)) (chain x0 x1 n (by omega))

/-- WHAT THE BODY LEAVES in the output block: the final count-and-scale of the scratch after all 32 steps. -/
theorem out_eq (c : Dev nD) (i : grid0.Coords) (arg1 : Memref sig .tc .vmem S256x32 .f32) (harg1 : arg1.IsWhole) (arg2 : Memref sig .tc .vmem S32x4096 .f32) (harg2 : arg2.IsWhole) (arg3 : Memref sig .tc .vmem S256 .f32) (harg3 : arg3.IsWhole) (arg4 : Memref sig .tc .vmem S256x4096 .f32) (harg4 : arg4.IsWhole)
    (x0 : Vec F S256x32 .f32) (x1 : Vec F S32x4096 .f32) :
    out0_A_2 c i arg1 harg1 arg2 harg2 arg3 harg3 arg4 harg4 x0 x1 = k0_pay2 (chain x0 x1 32 (le_refl 32)) := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero hz1]
  simp only [↓View.readCov_cons_toLoadRect, View.readAt_eq_ld, harg1.read_unread, harg2.read_unread]
  refine congrArg k0_pay2 ?_
  simp only [chain, step, col, row, zeroBlock, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, shapeCast_self]

end Cert.KernelIdeal.Body

end
-- ==== Proof.BoxLaw.lean ====
/-
  The mathematics of the Parzen-window box count, on the extended reals, with no program in sight.

  A training point lies in the box of half-width 1/4 around a test point when every coordinate difference d k has
  |d k| ≤ 1/4.  One side takes the running maximum of the |d k| from 0 and compares it with 1/4; the other compares
  each |d k| / (1/2) with 1/2 and takes the conjunction.  Both are the same bit for every extended real d k
  (no finiteness is needed: multiplying by 2 is monotone on the whole extended line, and the maximum is at most c
  exactly when each term is).  The count of the bits over the 4096 training points, a natural number, is then scaled
  by 2^20 on one side, and on the other each bit is scaled by 2^32 before the sum and the sum divided by 4096: the
  same real number.
-/
import Idealize.ShloMosaic.PureOps.Ideal
import Idealize.ShloMosaic.PureOps.Ideal.Laws

noncomputable section

namespace Cert.BoxLaw

open Idealize.ShloMosaic

/-! ## The constants the two programs spell -/

/-- 0x3E800000 is 1/4. -/
theorem w_quarter : Ideal.ofBits .f32 0x3E800000#32 = ((1 / 4 : ℝ) : EReal) := by
  simp [Ideal.ofBits, Ideal.ieee, -EReal.coe_mul]; norm_num

/-- 0x3F000000 is 1/2. -/
theorem w_half : Ideal.ofBits .f32 0x3F000000#32 = ((1 / 2 : ℝ) : EReal) := by
  simp [Ideal.ofBits, Ideal.ieee, -EReal.coe_mul]; norm_num

/-- 0x49800000 is 2^20. -/
theorem w_2p20 : Ideal.ofBits .f32 0x49800000#32 = ((1048576 : ℝ) : EReal) := by
  simp [Ideal.ofBits, Ideal.ieee, -EReal.coe_mul]; norm_num

/-- 0x4F800000 is 2^32. -/
theorem w_2p32 : Ideal.ofBits .f32 0x4F800000#32 = ((4294967296 : ℝ) : EReal) := by
  simp [Ideal.ofBits, Ideal.ieee, -EReal.coe_mul]; norm_num

/-- 0x45800000 is 4096. -/
theorem w_4096 : Ideal.ofBits .f32 0x45800000#32 = ((4096 : ℝ) : EReal) := by
  simp [Ideal.ofBits, Ideal.ieee, -EReal.coe_mul]; norm_num

/-! ## The running maximum of absolute values -/

/-- The running maximum of the absolute values |d 0|, …, |d (n-1)| started at z (|x| is max x (-x)). -/
def runMax (z : EReal) (d : ℕ → EReal) : ℕ → EReal
  | 0 => z
  | n + 1 => max (runMax z d n) (max (d n) (-(d n)))

/-- It is at most c exactly when its start and every term are. -/
theorem runMax_le_iff (z : EReal) (d : ℕ → EReal) (c : EReal) (n : ℕ) :
    runMax z d n ≤ c ↔ z ≤ c ∧ ∀ i, i < n → max (d i) (-(d i)) ≤ c := by
  induction n with
  | zero => simp [runMax]
  | succ n ih =>
    rw [runMax, max_le_iff, ih]
    constructor
    · rintro ⟨⟨hz, h⟩, hn⟩
      refine ⟨hz, fun i hi => ?_⟩
      rcases Nat.lt_succ_iff_lt_or_eq.mp hi with h' | rfl
      · exact h i h'
      · exact hn
    · rintro ⟨hz, h⟩
      exact ⟨⟨hz, fun i hi => h i (Nat.lt_succ_of_lt hi)⟩, h n (Nat.lt_succ_self n)⟩

/-- A family over the 32 coordinates, continued by 0 past them. -/
def ext32 (d : Fin 32 → EReal) : ℕ → EReal := fun k => if h : k < 32 then d ⟨k, h⟩ else 0

theorem ext32_of_lt (d : Fin 32 → EReal) (k : ℕ) (h : k < 32) : ext32 d k = d ⟨k, h⟩ := dif_pos h

/-! ## One coordinate's test, two ways -/

/-- x / (1/2) ≤ 1/2 exactly when x ≤ 1/4, for every extended real x. -/
theorem div_half_le_half_iff (x : EReal) :
    Ideal.div x ((1 / 2 : ℝ) : EReal) ≤ ((1 / 2 : ℝ) : EReal) ↔ x ≤ ((1 / 4 : ℝ) : EReal) := by
  rw [Ideal.div_coe (by norm_num)]
  induction x using EReal.rec with
  | bot => rw [EReal.bot_mul_coe_of_pos (by norm_num)]; simp
  | top => rw [EReal.top_mul_coe_of_pos (by norm_num)]; simp
  | coe r =>
    rw [← EReal.coe_mul, EReal.coe_le_coe_iff, EReal.coe_le_coe_iff]
    constructor <;> intro h <;> linarith

/-! ## Bits -/

theorem andi_eq_one {c d : BitVec 1} : IntOp.andi c d = 1#1 ↔ c = 1#1 ∧ d = 1#1 := by revert c d; decide

/-- Two one-bit words that are 1 together are equal. -/
theorem bit_eq_of_iff {a b : BitVec 1} (h : a = 1#1 ↔ b = 1#1) : a = b := by revert a b; decide

/-- The comparison ≤ answers 1 exactly when it holds. -/
theorem cmp_ole_eq_one (x y : EReal) : Ideal.cmp .ole x y = 1#1 ↔ x ≤ y := by
  unfold Ideal.cmp
  by_cases h : x ≤ y <;> simp [h]

/-- A conjunction of bits over a finite set is 1 exactly when every bit is. -/
theorem fold_andi_eq_one {ι : Type} [DecidableEq ι] (s : Finset ι) (f : ι → BitVec 1) :
    s.fold IntOp.andi 1#1 f = 1#1 ↔ ∀ k ∈ s, f k = 1#1 := by
  induction s using Finset.induction_on with
  | empty => simp
  | insert a s ha ih => rw [Finset.fold_insert ha, andi_eq_one, ih, Finset.forall_mem_insert]

/-- THE BIT: the conjunction over the 32 coordinates of "|d k| / (1/2) ≤ 1/2" is the one comparison
    "the running maximum of the |d k| from 0 is ≤ 1/4". -/
theorem allWithin_eq (d : Fin 32 → EReal) :
    (Finset.univ : Finset (Fin 32)).fold IntOp.andi 1#1
        (fun k => Ideal.cmp .ole (Ideal.div (max (d k) (-(d k))) (Ideal.ofBits .f32 0x3F000000#32)) (Ideal.ofBits .f32 0x3F000000#32))
      = Ideal.cmp .ole (runMax (Ideal.ofBits .f32 0x00000000#32) (ext32 d) 32) (Ideal.ofBits .f32 0x3E800000#32) := by
  apply bit_eq_of_iff
  rw [fold_andi_eq_one, cmp_ole_eq_one, runMax_le_iff, w_half, w_quarter, Ideal.ofBits_zero_f32]
  constructor
  · intro h
    refine ⟨by rw [← EReal.coe_zero, EReal.coe_le_coe_iff]; norm_num, fun i hi => ?_⟩
    rw [ext32_of_lt d i hi]
    exact (div_half_le_half_iff _).mp ((cmp_ole_eq_one _ _).mp (h ⟨i, hi⟩ (Finset.mem_univ _)))
  · rintro ⟨-, h⟩ k -
    have := h k.val k.isLt
    rw [ext32_of_lt d k.val k.isLt] at this
    exact (cmp_ole_eq_one _ _).mpr ((div_half_le_half_iff _).mpr this)

/-- A bit widened to 32 bits and read signed is the bit read unsigned: 0 or 1. -/
theorem bit_toInt (b : BitVec 1) : (((b.setWidth 32).toInt : ℝ) : EReal) = ((b.toNat : ℝ) : EReal) := by
  have h : (b.setWidth 32).toInt = (b.toNat : ℤ) := by revert b; decide
  rw [h]; simp

/-! ## The count, scaled two ways -/

/-- The coercion of the reals into the extended reals commutes with finite sums. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- THE SCALE: the count times 2^20 is (the sum of 2^32 per hit, from 0) divided by 4096. -/
theorem count_scale (n : Fin 4096 → ℕ) :
    (∑ q : Fin 4096, ((n q : ℝ) : EReal)) * Ideal.ofBits .f32 0x49800000#32
      = Ideal.div (Ideal.ofBits .f32 0x00000000#32 + ∑ q : Fin 4096, Ideal.ofBits .f32 0x4F800000#32 * ((n q : ℝ) : EReal))
          (Ideal.ofBits .f32 0x45800000#32) := by
  rw [w_2p20, w_2p32, w_4096, Ideal.ofBits_zero_f32, zero_add, Ideal.div_coe (by norm_num)]
  simp only [← EReal.coe_mul]
  rw [coe_sum, coe_sum, ← EReal.coe_mul, ← EReal.coe_mul, ← Finset.mul_sum]
  congr 1
  ring

end Cert.BoxLaw

end
-- ==== Proof.BoxCount.lean ====
/-
  The specification: the Parzen-window estimate as ONE function of the two argument arrays, index by index.

  For test point p and training point q the bit `hit` says whether the running maximum, from 0, of the 32 absolute
  coordinate differences |test(p,k) - train(q,k)| is at most 1/4; the estimate at p is the number of hits over the
  4096 training points (each bit widened and read as a number) times 2^20.
-/
import proofs.«159634_j82463372083230_2_alg».proof.Proof.BoxLaw
import Idealize.ShloMosaic.Lib.ValueIdx

noncomputable section

namespace Cert.BoxCount

open Idealize.ShloMosaic Idealize.ShloMosaic.ValueIdx Cert.BoxLaw

/-- Is training point q inside the box of half-width 1/4 around test point p? -/
def hit (x0 : (⟨2, ![1024, 32]⟩ : Shape).Idx → EReal) (x1 : (⟨2, ![4096, 32]⟩ : Shape).Idx → EReal) (p : Fin 1024) (q : Fin 4096) :
    BitVec 1 :=
  Ideal.cmp .ole (runMax (Ideal.ofBits .f32 0x00000000#32) (ext32 fun k => x0 (ix2 p k) - x1 (ix2 q k)) 32)
    (Ideal.ofBits .f32 0x3E800000#32)

/-- The estimate at test point p: the count of hits, times 2^20. -/
def rowCount (x0 : (⟨2, ![1024, 32]⟩ : Shape).Idx → EReal) (x1 : (⟨2, ![4096, 32]⟩ : Shape).Idx → EReal) (p : Fin 1024) : EReal :=
  (∑ q : Fin 4096, ((((hit x0 x1 p q).setWidth 32).toInt : ℝ) : EReal)) * Ideal.ofBits .f32 0x49800000#32

/-- The result array. -/
def G (x0 : (⟨2, ![1024, 32]⟩ : Shape).Idx → EReal) (x1 : (⟨2, ![4096, 32]⟩ : Shape).Idx → EReal) :
    (⟨1, ![1024]⟩ : Shape).Idx → EReal := fun i => rowCount x0 x1 (i 0)

theorem G_ix1 (x0 : (⟨2, ![1024, 32]⟩ : Shape).Idx → EReal) (x1 : (⟨2, ![4096, 32]⟩ : Shape).Idx → EReal) (p : Fin 1024) :
    G x0 x1 (ix1 p) = rowCount x0 x1 p := rfl

end Cert.BoxCount

end
-- ==== Proof.KernelValue.lean ====
/-
  The kernel's output block read at an element, on the extended reals.

  At row p of the block the body's result is the count over the lanes q of the bit "scratch(p,q) ≤ 1/4", times 2^20,
  and the scratch after n steps is, at (p,q), the running maximum from 0 of |x0(p,k) - x1(k,q)| over k < n: one step
  reads column k at (p,0) and row k at (0,q).
-/
import proofs.«159634_j82463372083230_2_alg».proof.Proof.KernelBody
import proofs.«159634_j82463372083230_2_alg».proof.Proof.BoxCount
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Cert.KernelIdeal.Body
open Idealize.ShloMosaic Idealize.ShloMosaic.ValueIdx Idealize.ShloMosaic.TcCoe Idealize.SL.Sem

/-- A [256, 1] column broadcast along the lanes reads, at (p, q), the column at p. -/
theorem bcast_col_apply {α : Type} (a : S256x1.Idx → α) (h : S256x1.Broadcasts S256x4096) (p : Fin 256) (q : Fin 4096) :
    broadcastTo S256x4096 a h (ix2 p q) = a (ix2 p (0 : Fin 1)) := by
  refine broadcastTo_apply a h (ix2 p q) (ix2 p (0 : Fin 1)) fun ax => ?_
  match ax with
  | ⟨0, _⟩ => show p.val = if (256 : Nat) = 1 then 0 else p.val; rw [if_neg (by decide)]
  | ⟨1, _⟩ => show (0 : Nat) = if (1 : Nat) = 1 then 0 else q.val; rw [if_pos rfl]

/-- Column k of the block, at row p, is the block at (p, k). -/
theorem col_apply {F : FTy → Type} [FloatOps F] (x0 : Vec F S256x32 .f32) (k : ℕ) (hk : k < 32) (p : Fin 256) :
    col x0 k hk (ix2 p (0 : Fin 1)) = x0 (ix2 p ⟨k, hk⟩) := by
  unfold col
  show x0 _ = x0 _
  refine congrArg x0 (funext fun a => Fin.ext ?_)
  match a with
  | ⟨0, _⟩ => show 0 + 1 * p.val = p.val; omega
  | ⟨1, _⟩ => show k + 1 * 0 = k; omega

/-- Row k of the transposed block, at lane q, is the block at (k, q). -/
theorem row_apply {F : FTy → Type} [FloatOps F] (x1 : Vec F S32x4096 .f32) (k : ℕ) (hk : k < 32) (q : Fin 4096) :
    row x1 k hk (ix2 (0 : Fin 1) q) = x1 (ix2 ⟨k, hk⟩ q) := by
  unfold row
  show x1 _ = x1 _
  refine congrArg x1 (funext fun a => Fin.ext ?_)
  match a with
  | ⟨0, _⟩ => show k + 1 * 0 = k; omega
  | ⟨1, _⟩ => show 0 + 1 * q.val = q.val; omega

/-- One step at (p, q): the maximum of the scratch there and |a(p,0) - b(0,q)|. -/
theorem step_apply (a : Vec Ideal S256x1 .f32) (b : Vec Ideal S1x4096 .f32) (acc : Vec Ideal S256x4096 .f32) (p : Fin 256) (q : Fin 4096) :
    step (F := Ideal) a b acc (ix2 p q)
      = max (acc (ix2 p q)) (max (a (ix2 p (0 : Fin 1)) - b (ix2 (0 : Fin 1) q)) (-(a (ix2 p (0 : Fin 1)) - b (ix2 (0 : Fin 1) q)))) := by
  unfold step
  show max (acc (ix2 p q)) (max (broadcastTo S256x4096 a _ (ix2 p q) - broadcastTo S256x4096 b _ (ix2 p q))
    (-(broadcastTo S256x4096 a _ (ix2 p q) - broadcastTo S256x4096 b _ (ix2 p q)))) = _
  rw [bcast_col_apply, broadcastTo_1b_ab_apply]

/-- The scratch after n steps, at (p, q): the running maximum of the absolute differences of row p of the one block and
    column q of the other, from 0. -/
theorem chain_apply (x0 : Vec Ideal S256x32 .f32) (x1 : Vec Ideal S32x4096 .f32) (p : Fin 256) (q : Fin 4096) :
    ∀ (n : ℕ) (h : n ≤ 32), chain (F := Ideal) x0 x1 n h (ix2 p q)
      = BoxLaw.runMax (Ideal.ofBits .f32 0x00000000#32) (BoxLaw.ext32 fun k => x0 (ix2 p k) - x1 (ix2 k q)) n
  | 0, _ => rfl
  | n + 1, h => by
    have hn : n < 32 := by omega
    show step (col x0 n hn) (row x1 n hn) (chain x0 x1 n (by omega)) (ix2 p q) = _
    rw [step_apply, chain_apply x0 x1 p q n (by omega), col_apply, row_apply, BoxLaw.runMax, BoxLaw.ext32_of_lt _ n hn]

/-- A lane sum from the zero word, at row p: the sum over the lanes. -/
theorem lane_sum (src : FVec Ideal S256x4096 .f32) (h : S256x4096.Reduces [1] S256) (hφ : FKind.Formats .f32)
    (hacc : (0x00000000#32 : BitVec 32) = FKind.add.neutral .f32 hφ) (p : Fin 256) :
    multiReduction .add [1] S256 src 0x00000000#32 h hφ hacc (ix1 p) = ∑ q : Fin 4096, src (ix2 p q) := by
  refine (Ideal.multiReduction_add_single src 0x00000000#32 h hφ hacc (ix1 p)).trans ?_
  refine Finset.sum_congr rfl fun q _ => congrArg src (funext fun a => Fin.ext ?_)
  match a with
  | ⟨0, _⟩ => rfl
  | ⟨1, _⟩ => rfl

/-- The body's last payload at row p: the count of the lanes whose scratch is at most 1/4, times 2^20. -/
theorem count_apply (D : Vec Ideal S256x4096 .f32) (p : Fin 256) :
    k0_pay2 (F := Ideal) D (ix1 p)
      = (∑ q : Fin 4096, ((((Ideal.cmp .ole (D (ix2 p q)) (Ideal.ofBits .f32 0x3E800000#32)).setWidth 32).toInt : ℝ) : EReal))
          * Ideal.ofBits .f32 0x49800000#32 := by
  unfold k0_pay2
  refine (mulf_apply _ _ (ix1 p)).trans ?_
  refine congrArg₂ (· * ·) ?_ rfl
  refine (lane_sum _ _ _ _ p).trans ?_
  rfl

/-- THE BLOCK'S ROW: for blocks that read two arrays a0, a1 — row p of the one block is row r of a0, and the other block
    is a1 transposed — the body's result at row p is the specification's estimate at test point r. -/
theorem block_value (x0 : Vec Ideal S256x32 .f32) (x1 : Vec Ideal S32x4096 .f32)
    (a0 : (⟨2, ![1024, 32]⟩ : Shape).Idx → EReal) (a1 : (⟨2, ![4096, 32]⟩ : Shape).Idx → EReal) (r : Fin 1024) (p : Fin 256)
    (h0 : ∀ k : Fin 32, x0 (ix2 p k) = a0 (ix2 r k)) (h1 : ∀ (k : Fin 32) (q : Fin 4096), x1 (ix2 k q) = a1 (ix2 q k)) :
    k0_pay2 (F := Ideal) (chain x0 x1 32 (le_refl 32)) (ix1 p) = BoxCount.rowCount a0 a1 r := by
  rw [count_apply]
  unfold BoxCount.rowCount BoxCount.hit
  refine congrArg₂ (· * ·) (Finset.sum_congr rfl fun q _ => ?_) rfl
  rw [chain_apply]
  simp only [h0, h1]

end Cert.KernelIdeal.BlockValue

end
-- ==== Proof.KernelRun.lean ====
/-
  From blocks to the array: after the run the kernel's result array is the specification of the two argument arrays.

  The grid has four points. Point t stages rows 256·t … 256·t+255 of the test array, the whole transposed training
  array (which the one host operation before the region wrote), and writes back block t of the result. What point t
  writes back is block t of the specification (KernelValue.block_value at each row), and the four blocks cover the
  1024 entries.
-/
import proofs.«159634_j82463372083230_2_alg».proof.Proof.KernelValue
import proofs.«159634_j82463372083230_2_alg».proof.Proof.Gen.KernelIdeal.Value
import Idealize.ShloMosaic.Lib.StableHlo.Run
import Idealize.ShloMosaic.Lib.ValueLayout
import Idealize.ShloMosaic.Lib.Pipeline.Value

set_option maxRecDepth 16384

noncomputable section

namespace Cert.KernelIdeal.ArrayValue

open Cert.KernelIdeal Cert.KernelIdeal.Gen Cert.KernelIdeal.Body Cert.KernelIdeal.BlockValue
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The printed index maps, decided over the four points: the test block and the result block move with the point,
    the transposed training array is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = t.val :=
  (by decide +kernel : ∀ t : Fin grid0.N, _)

/-- The array the second window stages is the training array transposed: the host operation before the region. -/
theorem V_trainT (c : Dev nD) (h : S4096x32.Transposes [1, 0] S32x4096) :
    (V m c main_v0 : S32x4096.Idx → EReal) = transpose S32x4096 [1, 0] (m ((c : Thread nD τ).loc main_arg1)) h := by
  dsimp only [Gen.V, Gen.hostOps0]; after_results

/-- Row p of the test block at point t is row 256·t + p of the test array. -/
theorem test_block (c : Dev nD) (t : Fin cfg0.N) (p : Fin 256) (r : Fin 1024) (hr : r.val = 256 * t.val + p.val) (k : Fin 32) :
    iblk m c 0 t (ix2 p k) = m ((c : Thread nD τ).loc main_arg0) (ix2 r k) := by
  obtain ⟨e0, e1, -, -, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 32 + 1 * k.val = k.val; rw [e1]; omega

/-- The transposed training block at (k, q) is the training array at (q, k). -/
theorem train_block (c : Dev nD) (t : Fin cfg0.N) (k : Fin 32) (q : Fin 4096) :
    iblk m c 1 t (ix2 k q) = m ((c : Thread nD τ).loc main_arg1) (ix2 q k) := by
  obtain ⟨-, -, e0, e1, -⟩ := idx_facts t
  have hT : S4096x32.Transposes [1, 0] S32x4096 := by decide
  have e : ((cfg0.win 1).blk t).view.emb (ix2 k q) = ix2 k q := by
    refine funext fun a => Fin.ext ?_
    match a with
    | ⟨0, _⟩ => show win0_1.index t (0 : Fin 2) * 32 + 1 * k.val = k.val; rw [e0]; omega
    | ⟨1, _⟩ => show win0_1.index t (1 : Fin 2) * 4096 + 1 * q.val = q.val; rw [e1]; omega
  show V m c main_v0 (((cfg0.win 1).blk t).view.emb (ix2 k q)) = _
  rw [e, V_trainT m c hT]
  exact transpose_ix2_apply _ hT k q

/-- WHAT POINT t WRITES BACK is block t of the specification of the argument arrays. -/
theorem flushed_eq (c : Dev nD) (t : Fin cfg0.N) :
    (dats m 0 c).flushed 2 t = ((cfg0.win 2).blk t).view.read (Elt Ideal)
      (BoxCount.G (m ((c : Thread nD τ).loc main_arg0)) (m ((c : Thread nD τ).loc main_arg1))) := by
  rw [Value.flushed2_A, out_eq]
  obtain ⟨-, -, -, -, e2⟩ := idx_facts t
  have hN : cfg0.N = 4 := N_0
  funext j
  have ht : t.val < 4 := hN ▸ t.isLt
  have hj : (j 0).val < 256 := (j 0).isLt
  have he : ((cfg0.win 2).blk t).view.emb j = ix1 (⟨256 * t.val + (j 0).val, by omega⟩ : Fin 1024) := by
    refine funext fun a => Fin.ext ?_
    match a with
    | ⟨0, _⟩ => show win0_2.index t (0 : Fin 1) * 256 + 1 * (j 0).val = 256 * t.val + (j 0).val; rw [e2]; omega
  show k0_pay2 (chain (iblk m c 0 t) (iblk m c 1 t) 32 (le_refl 32)) j = BoxCount.G _ _ (((cfg0.win 2).blk t).view.emb j)
  rw [he, BoxCount.G_ix1]
  refine (congrArg (k0_pay2 (chain (iblk m c 0 t) (iblk m c 1 t) 32 (le_refl 32))) (eq_ix1 j)).trans ?_
  exact block_value (iblk m c 0 t) (iblk m c 1 t) _ _ _ (j 0) (fun k => test_block m c t (j 0) _ rfl k) (fun k q => train_block m c t k q)

/-- An entry of the result is in point t's block iff its index is in the block's range. -/
theorem mem_blk (t : Fin cfg0.N) (i : S1024.Idx) :
    i ∈ ((cfg0.win 2).blk t).view.set ↔ ∀ a : Fin 1, win0_2.index t a * S256.size a ≤ (i a).val ∧ (i a).val < win0_2.index t a * S256.size a + S256.size a := by
  show i ∈ ((View.whole main_v1).slice (win0_2.rect t)).set ↔ _
  rw [View.set_slice_whole, Rect.mem_set_unit]
  exact Iff.rfl

/-- The four blocks cover the result: entry r is in the block of point r / 256. -/
theorem cover (i : S1024.Idx) : ∃ t : Fin cfg0.N, (cfg0.win 2).flush t = true ∧ i ∈ ((cfg0.win 2).blk t).view.set := by
  have hN : cfg0.N = 4 := N_0
  have hi : (i 0).val < 1024 := (i 0).isLt
  refine ⟨⟨(i 0).val / 256, by omega⟩, flush0_2 _, ?_⟩
  rw [mem_blk]
  intro a
  obtain ⟨-, -, -, -, e2⟩ := idx_facts ⟨(i 0).val / 256, by omega⟩
  match a with
  | ⟨0, _⟩ =>
    show win0_2.index _ (0 : Fin 1) * 256 ≤ (i 0).val ∧ (i 0).val < win0_2.index _ (0 : Fin 1) * 256 + 256
    rw [e2]
    show (i 0).val / 256 * 256 ≤ (i 0).val ∧ (i 0).val < (i 0).val / 256 * 256 + 256
    omega

/-- THE ARRAY after the run is the specification. -/
theorem final (c : Dev nD) : (dats m 0 c).arrAt 2 cfg0.N
    = BoxCount.G (m ((c : Thread nD τ).loc main_arg0)) (m ((c : Thread nD τ).loc main_arg1)) :=
  (dats m 0 c).arrAt_eq_of_cover 2 _ (fun t _ => flushed_eq m c t) cover

/-- The kernel's run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v1)
        = BoxCount.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference's result, read one operation at a time, is the specification.

  At (p, q, k) the reference compares |test(p,k) - train(q,k)| / (1/2) with 1/2; its conjunction over k is the
  specification's bit (the running-maximum form: BoxLaw.allWithin_eq); the bit, converted unsigned, is scaled by 2^32,
  summed over q from 0 and divided by 4096: the count times 2^20 (BoxLaw.count_scale).
-/
import proofs.«159634_j82463372083230_2_alg».proof.Proof.Gen.ReferenceIdeal.Read
import proofs.«159634_j82463372083230_2_alg».proof.Proof.BoxCount
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The conjunction runs over the last axis. -/
theorem red2 : S1024x4096x32.Reduces [2] S1024x4096 := by decide

/-- One coordinate's test at (p, q, k). -/
theorem within_apply (x0 : (⟨S1024x32, .f32⟩ : BufTy).Contents (Elt Ideal)) (x1 : (⟨S4096x32, .f32⟩ : BufTy).Contents (Elt Ideal))
    (p : Fin 1024) (q : Fin 4096) (k : Fin 32) :
    val_main_v9 (F := Ideal) x0 x1 (ix3 p q k)
      = Ideal.cmp .ole (Ideal.div (max (x0 (ix2 p k) - x1 (ix2 q k)) (-(x0 (ix2 p k) - x1 (ix2 q k))))
          (Ideal.ofBits .f32 0x3F000000#32)) (Ideal.ofBits .f32 0x3F000000#32) := by
  have e0 : idx_main_v0 (idx_main_v2 (ix3 p q k)) = ix2 p k :=
    funext fun a => Fin.ext (by match a with | ⟨0, _⟩ => rfl | ⟨1, _⟩ => rfl)
  have e1 : idx_main_v1 (idx_main_v3 (ix3 p q k)) = ix2 q k :=
    funext fun a => Fin.ext (by match a with | ⟨0, _⟩ => rfl | ⟨1, _⟩ => rfl)
  rw [val_main_v9_apply, val_main_v7_apply, val_main_v8_apply, val_main_cst_0_apply, val_main_v6_apply, val_main_cst_apply,
    val_main_v5_apply, val_main_v4_apply, val_main_v2_apply, val_main_v0_apply, val_main_v3_apply, val_main_v1_apply, e0, e1]
  rfl

/-- The same, at the index the conjunction visits for coordinate k of (p, q). -/
theorem within_lift (x0 : (⟨S1024x32, .f32⟩ : BufTy).Contents (Elt Ideal)) (x1 : (⟨S4096x32, .f32⟩ : BufTy).Contents (Elt Ideal))
    (p : Fin 1024) (q : Fin 4096) (k : Fin 32) :
    val_main_v9 (F := Ideal) x0 x1 (red2.lift (ix2 p q) k)
      = Ideal.cmp .ole (Ideal.div (max (x0 (ix2 p k) - x1 (ix2 q k)) (-(x0 (ix2 p k) - x1 (ix2 q k))))
          (Ideal.ofBits .f32 0x3F000000#32)) (Ideal.ofBits .f32 0x3F000000#32) := by
  have e : red2.lift (ix2 p q) k = ix3 p q k :=
    funext fun a => Fin.ext (by match a with | ⟨0, _⟩ => rfl | ⟨1, _⟩ => rfl | ⟨2, _⟩ => rfl)
  rw [e, within_apply]

/-- The conjunction over the coordinates at (p, q) is the specification's bit. -/
theorem all_apply (x0 : (⟨S1024x32, .f32⟩ : BufTy).Contents (Elt Ideal)) (x1 : (⟨S4096x32, .f32⟩ : BufTy).Contents (Elt Ideal))
    (p : Fin 1024) (q : Fin 4096) :
    val_main_v10 (F := Ideal) x0 x1 (ix2 p q) = BoxCount.hit x0 x1 p q := by
  unfold val_main_v10 BoxCount.hit
  refine (Host.reduce_eq_fold_single IntOp.andi _ _ reducesTo_S1024x4096x32_S1024x4096_d2 red2 h_S_ (ix2 p q)).trans ?_
  refine Eq.trans ?_ (BoxLaw.allWithin_eq fun k => x0 (ix2 p k) - x1 (ix2 q k))
  exact Finset.fold_congr fun k _ => within_lift x0 x1 p q k

/-- THE REFERENCE IS THE SPECIFICATION. -/
theorem ref_eq (x0 : (⟨S1024x32, .f32⟩ : BufTy).Contents (Elt Ideal)) (x1 : (⟨S4096x32, .f32⟩ : BufTy).Contents (Elt Ideal)) :
    val_main_v16 (F := Ideal) x0 x1 = BoxCount.G x0 x1 := by
  funext i
  obtain ⟨p, rfl⟩ : ∃ p : Fin 1024, i = ix1 p := ⟨i 0, eq_ix1 i⟩
  rw [BoxCount.G_ix1, val_main_v16_apply, val_main_v15_apply, val_main_cst_3_apply, val_main_v14_apply, val_main_cst_2_apply]
  unfold BoxCount.rowCount
  have e : ∀ k : Fin 4096, val_main_v13 (F := Ideal) x0 x1 (idx_main_v14 (ix1 p) k)
      = Ideal.ofBits .f32 0x4F800000#32 * (((BoxCount.hit x0 x1 p k).toNat : ℝ) : EReal) := by
    intro k
    have ei : idx_main_v14 (ix1 p) k = ix2 p k :=
      funext fun a => Fin.ext (by match a with | ⟨0, _⟩ => rfl | ⟨1, _⟩ => rfl)
    rw [ei, val_main_v13_apply, val_main_v12_apply, val_main_cst_1_apply, val_main_v11_apply, all_apply]
    rfl
  simp only [e, BoxLaw.bit_toInt]
  exact (BoxLaw.count_scale fun q => (BoxCount.hit x0 x1 p q).toNat).symm

end Cert.ReferenceIdeal.RefValue

end
-- ==== Proof.lean ====
/-
  The Parzen-window density estimate with a box kernel of bandwidth 1/2 in 32 dimensions: for each of 1024 test
  points, the fraction of the 4096 training points lying in the box of half-width 1/4 around it, times 2^32.

  The kernel tiles the test points in four blocks of 256, keeps for every (test, training) pair the running maximum
  from 0 of the 32 absolute coordinate differences, compares it with 1/4, counts the hits along each row and scales
  the count by 2^20 = 2^32 / 4096. The reference compares every |difference| / (1/2) with 1/2, takes the conjunction
  over the coordinates, scales each bit by 2^32 and takes the mean over the training points. On the extended reals
  the two bits agree for every value of the differences (Proof/BoxLaw.lean: a maximum is at most c exactly when every
  term is, and doubling is monotone on the whole extended line), and the two scalings of the count agree as real
  numbers; no finiteness of the inputs is used.

  Both sides are shown equal to one specification (Proof/BoxCount.lean): the kernel's result array through its
  body's chain of 32 steps (Proof/KernelBody.lean), read at an element (Proof/KernelValue.lean) and assembled from
  the four blocks (Proof/KernelRun.lean); the reference's through its operations read one at a time
  (Proof/RefValue.lean). The three frames are the programs' runs with the results dropped; the idealization rewrote
  nothing, so `preserves` is trivial.
-/
import proofs.«159634_j82463372083230_2_alg».proof.Defs
import proofs.«159634_j82463372083230_2_alg».proof.Proof.Gen.Kernel
import proofs.«159634_j82463372083230_2_alg».proof.Proof.Gen.Kernel.Skeleton
import proofs.«159634_j82463372083230_2_alg».proof.Proof.Gen.Kernel.Launch
import proofs.«159634_j82463372083230_2_alg».proof.Proof.Gen.Kernel.Points
import proofs.«159634_j82463372083230_2_alg».proof.Proof.Gen.Kernel.Frame
import proofs.«159634_j82463372083230_2_alg».proof.Proof.Gen.KernelIdeal
import proofs.«159634_j82463372083230_2_alg».proof.Proof.Gen.KernelIdeal.Skeleton
import proofs.«159634_j82463372083230_2_alg».proof.Proof.Gen.KernelIdeal.Launch
import proofs.«159634_j82463372083230_2_alg».proof.Proof.Gen.KernelIdeal.Points
import proofs.«159634_j82463372083230_2_alg».proof.Proof.Gen.KernelIdeal.Frame
import proofs.«159634_j82463372083230_2_alg».proof.Proof.Gen.ReferenceIdeal
import proofs.«159634_j82463372083230_2_alg».proof.Proof.Gen.Pre_finite_inputs
import proofs.«159634_j82463372083230_2_alg».proof.Proof.Gen.KernelIdeal.Value
import proofs.«159634_j82463372083230_2_alg».proof.Proof.Gen.ReferenceIdeal.Run
import proofs.«159634_j82463372083230_2_alg».proof.Proof.Gen.ReferenceIdeal.Read
import proofs.«159634_j82463372083230_2_alg».proof.Proof.KernelRun
import proofs.«159634_j82463372083230_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the specification of the argument arrays, which agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
